-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S16384 : Shape := ⟨1, ![16384]⟩
abbrev S8192x8192 : Shape := ⟨2, ![8192, 8192]⟩
abbrev S8192x1 : Shape := ⟨2, ![8192, 1]⟩

class Facts : Prop where
  reducesTo_S_S_d : S_.ReducesTo [] S_
  h_S_ : 0 < S_.numel
  bcast_S_S16384 : S_.BroadcastsInDim S16384 (![] : Fin 0 → Fin S16384.rank)
  reducesTo_S16384_S_d0 : S16384.ReducesTo [0] S_
  bcast_S_S8192x8192 : S_.BroadcastsInDim S8192x8192 (![] : Fin 0 → Fin S8192x8192.rank)
  reducesTo_S8192x8192_S_d0_1 : S8192x8192.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_v12 : IVec S_ 1) (main_v15 : IVec S8192x1 1) (main_c_5 : IVec S_ 1) : IVec S_ 1 :=
  let main_v16 : IVec S_ 1 := (fun x v => Host.reduce IntOp.andi x v reducesTo_S8192x1_S_d0_1 h_S_) main_v15 main_c_5
  let main_v17 : IVec S_ 1 := andi main_v12 main_v16
  main_v17

def fn {F : FTy → Type} [FloatOps F] (main_arg0 : FVec F S_ .f32) (main_arg1 : FVec F S16384 .f32) (main_arg2 : FVec F S8192x8192 .f32) (main_arg3 : FVec F S8192x1 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S16384 .f32 := Host.absf main_arg1
  let main_cst_0 : FVec F S_ .f32 := constant S_ .f32 0x7F800000#32
  let main_v4 : FVec F S16384 .f32 := broadcastInDim S16384 ![] bcast_S_S16384 main_cst_0
  let main_v5 : IVec S16384 1 := cmpf .olt main_v3 main_v4
  let main_c_1 : IVec S_ 1 := constantI S_ 1 1#1
  let main_v6 : IVec S_ 1 := (fun x v => Host.reduce IntOp.andi x v reducesTo_S16384_S_d0 h_S_) main_v5 main_c_1
  let main_v7 : IVec S_ 1 := andi main_v2 main_v6
  let main_v8 : FVec F S8192x8192 .f32 := Host.absf main_arg2
  let main_cst_2 : FVec F S_ .f32 := constant S_ .f32 0x7F800000#32
  let main_v9 : FVec F S8192x8192 .f32 := broadcastInDim S8192x8192 ![] bcast_S_S8192x8192 main_cst_2
  let main_v10 : IVec S8192x8192 1 := cmpf .olt main_v8 main_v9
  let main_c_3 : IVec S_ 1 := constantI S_ 1 1#1
  let main_v11 : IVec S_ 1 := (fun x v => Host.reduce IntOp.andi x v reducesTo_S8192x8192_S_d0_1 h_S_) main_v10 main_c_3
  let main_v12 : IVec S_ 1 := andi main_v7 main_v11
  let main_v13 : FVec F S8192x1 .f32 := Host.absf main_arg3
  let main_cst_4 : FVec F S_ .f32 := constant S_ .f32 0x7F800000#32
  let main_v14 : FVec F S8192x1 .f32 := broadcastInDim S8192x1 ![] bcast_S_S8192x1 main_cst_4
  let main_v15 : IVec S8192x1 1 := cmpf .olt main_v13 main_v14
  let main_c_5 : IVec S_ 1 := constantI S_ 1 1#1
  fn_part1 (F := F) main_v12 main_v15 main_c_5
-- ==== Kernel.lean ====
abbrev S_ : Shape := ⟨0, ![]⟩
abbrev S16384 : Shape := ⟨1, ![16384]⟩
abbrev S8192x8192 : Shape := ⟨2, ![8192, 8192]⟩
abbrev S8192x1 : Shape := ⟨2, ![8192, 1]⟩
abbrev S8192 : Shape := ⟨1, ![8192]⟩
abbrev S1x8192 : Shape := ⟨2, ![1, 8192]⟩
abbrev S512x8192 : Shape := ⟨2, ![512, 8192]⟩
abbrev S512x1 : Shape := ⟨2, ![512, 1]⟩
abbrev S64x8192 : Shape := ⟨2, ![64, 8192]⟩
abbrev S64 : Shape := ⟨1, ![64]⟩
abbrev S64x1 : Shape := ⟨2, ![64, 1]⟩

abbrev nBuf : Space → Nat
  | .hbm => 14
  | .vmem => 14
  | .smem => 0
  | _ => 0

abbrev bufTy : (tb : Table) → Fin (tcTables nBuf tb) → BufTy
  | .hbm, ⟨0, _⟩ => ⟨S_, .f32⟩
  | .hbm, ⟨1, _⟩ => ⟨S16384, .f32⟩
  | .hbm, ⟨2, _⟩ => ⟨S8192x8192, .f32⟩
  | .hbm, ⟨3, _⟩ => ⟨S8192x1, .f32⟩
  | .hbm, ⟨4, _⟩ => ⟨S8192, .f32⟩
  | .hbm, ⟨5, _⟩ => ⟨S8192, .f32⟩
  | .hbm, ⟨6, _⟩ => ⟨S1x8192, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S16384, .f32⟩
  | .local _ .vmem, ⟨0, _⟩ => ⟨S512x8192, .f32⟩
  | .local _ .vmem, ⟨1, _⟩ => ⟨S512x8192, .f32⟩
  | .local _ .vmem, ⟨2, _⟩ => ⟨S1x8192, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S16384_S8192_0 : S16384.Slices ![0] S8192
  slices_S16384_S8192_8192 : S16384.Slices ![8192] S8192
  shapeCasts_S8192_S1x8192 : S8192.ShapeCasts S1x8192
  shapeCasts_S8192_S8192x1 : S8192.ShapeCasts S8192x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x8192_S64x8192_0_0 : ∀ a, (![0, 0] : Fin 2 → Nat) a + S64x8192.size a ≤ S512x8192.size a
  h_S64x8192 : 0 < S64x8192.numel
  broadcasts_S1x8192_S64x8192 : S1x8192.Broadcasts S64x8192
  reduces_S64x8192_S64 : S64x8192.Reduces [1] S64
  shapeCasts_S64_S64x1 : S64.ShapeCasts S64x1
  inb_S512x1_S64x1_0_0 : ∀ a, (![0, 0] : Fin 2 → Nat) a + S64x1.size a ≤ S512x1.size a
  h_S64x1 : 0 < S64x1.numel
  shapeCasts_S64x1_S64x1 : S64x1.ShapeCasts S64x1
  inb_S512x8192_S64x8192_64_0 : ∀ a, (![64, 0] : Fin 2 → Nat) a + S64x8192.size a ≤ S512x8192.size a
  inb_S512x1_S64x1_64_0 : ∀ a, (![64, 0] : Fin 2 → Nat) a + S64x1.size a ≤ S512x1.size a
  inb_S512x8192_S64x8192_128_0 : ∀ a, (![128, 0] : Fin 2 → Nat) a + S64x8192.size a ≤ S512x8192.size a
  inb_S512x1_S64x1_128_0 : ∀ a, (![128, 0] : Fin 2 → Nat) a + S64x1.size a ≤ S512x1.size a
  inb_S512x8192_S64x8192_192_0 : ∀ a, (![192, 0] : Fin 2 → Nat) a + S64x8192.size a ≤ S512x8192.size a
  inb_S512x1_S64x1_192_0 : ∀ a, (![192, 0] : Fin 2 → Nat) a + S64x1.size a ≤ S512x1.size a
  inb_S512x8192_S64x8192_256_0 : ∀ a, (![256, 0] : Fin 2 → Nat) a + S64x8192.size a ≤ S512x8192.size a
  inb_S512x1_S64x1_256_0 : ∀ a, (![256, 0] : Fin 2 → Nat) a + S64x1.size a ≤ S512x1.size a
  inb_S512x8192_S64x8192_320_0 : ∀ a, (![320, 0] : Fin 2 → Nat) a + S64x8192.size a ≤ S512x8192.size a
  inb_S512x1_S64x1_320_0 : ∀ a, (![320, 0] : Fin 2 → Nat) a + S64x1.size a ≤ S512x1.size a
  inb_S512x8192_S64x8192_384_0 : ∀ a, (![384, 0] : Fin 2 → Nat) a + S64x8192.size a ≤ S512x8192.size a
  inb_S512x1_S64x1_384_0 : ∀ a, (![384, 0] : Fin 2 → Nat) a + S64x1.size a ≤ S512x1.size a
  inb_S512x8192_S64x8192_448_0 : ∀ a, (![448, 0] : Fin 2 → Nat) a + S64x8192.size a ≤ S512x8192.size a
  inb_S512x1_S64x1_448_0 : ∀ a, (![448, 0] : Fin 2 → Nat) a + S64x1.size a ≤ S512x1.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S8192x1_S8192 : S8192x1.ShapeCasts S8192
  concatenates_S8192_S8192_S16384_d0 : Shape.Concatenates [S8192, S8192] S16384 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)

variable [Facts₀]

abbrev win0_0 : Pipeline.Window sig grid0 :=
  Pipeline.Window.ofSpec (Memref.whole main_arg2) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S_ : Shape := ⟨0, ![]⟩
abbrev S16384 : Shape := ⟨1, ![16384]⟩
abbrev S8192x8192 : Shape := ⟨2, ![8192, 8192]⟩
abbrev S8192x1 : Shape := ⟨2, ![8192, 1]⟩
abbrev S8192 : Shape := ⟨1, ![8192]⟩

abbrev nBuf : Space → Nat
  | .hbm => 36
  | .vmem => 0
  | .smem => 0
  | _ => 0

abbrev bufTy : (tb : Table) → Fin (tcTables nBuf tb) → BufTy
  | .hbm, ⟨0, _⟩ => ⟨S_, .f32⟩
  | .hbm, ⟨1, _⟩ => ⟨S16384, .f32⟩
  | .hbm, ⟨2, _⟩ => ⟨S8192x8192, .f32⟩
  | .hbm, ⟨3, _⟩ => ⟨S8192x1, .f32⟩
  | .hbm, ⟨4, _⟩ => ⟨S8192, .f32⟩
  | .hbm, ⟨5, _⟩ => ⟨S8192x1, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192, .f32⟩
  | .hbm, ⟨34, _⟩ => ⟨S8192, .f32⟩
  | .hbm, ⟨35, _⟩ => ⟨S16384, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  slices_S16384_S8192_0 : S16384.Slices ![0] S8192
  shapeCasts_S8192_S8192x1 : S8192.ShapeCasts S8192x1
  slices_S16384_S8192_8192 : S16384.Slices ![8192] S8192
  bcast_S_S8192x1 : S_.BroadcastsInDim S8192x1 (![] : Fin 0 → Fin S8192x1.rank)
  shapeCasts_S8192x1_S8192 : S8192x1.ShapeCasts S8192
  concatenates_S8192_S8192_S16384_d0 : Shape.Concatenates [S8192, S8192] S16384 0
  dot_S8192x8192_S8192x1_S8192x1_1_0_0_1_n_n_wf : DotDims.WF S8192x8192 S8192x1 S8192x1 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.Reaction.lean ====
/-
  The right-hand side of a two-species reaction–diffusion system, entry by entry.

  The state is a pair of columns u and v of n numbers each, p is a column of n excitability parameters and S is an
  n × n diffusion matrix. Row r of the right-hand side is

      du_r = Σ_k S_{r,k} · u_k + ((8 · u_r) · (1 − u_r)) · (u_r − p_r) − u_r · v_r
      dv_r = e · (((8 · u_r) · ((u_r − p_r) − 1)) + v_r)

  with e the single-precision number nearest to −0.01. The three numbers 8, 1 and e enter only through their
  single-precision words, which are never evaluated: both programs spell the same words.

  The only step that is not pointwise is the sum over k.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.ReactionDiffusion

open Idealize.ShloMosaic Idealize.ShloMosaic.ValueIdx

/-- The single-precision words of 8, 1 and the number nearest to −0.01, read as extended reals. -/
abbrev eight : EReal := Ideal.ofBits .f32 0x41000000#32
abbrev one : EReal := Ideal.ofBits .f32 0x3F800000#32
abbrev rate : EReal := Ideal.ofBits .f32 0xBC23D70A#32

/-- The first species' rate from its diffusion term `s` and the local values. -/
def activator (s u v p : EReal) : EReal := (s + ((eight * u) * (one - u)) * (u - p)) - u * v

/-- The second species' rate from the local values. -/
def inhibitor (u v p : EReal) : EReal := rate * (((eight * u) * ((u - p) - one)) + v)

/-- Row `r` of a matrix against a column: Σ_k S_{r,k} · u_k. -/
def rowDot {a n : ℕ} (S : (⟨2, ![a, n]⟩ : Shape).Idx → EReal) (U : (⟨2, ![n, 1]⟩ : Shape).Idx → EReal) (r : Fin a) : EReal :=
  ∑ k : Fin n, S (ix2 r k) * U (ix2 k (0 : Fin 1))

/-- The first species' rates as a column. -/
def du {n : ℕ} (S : (⟨2, ![n, n]⟩ : Shape).Idx → EReal) (U V P : (⟨2, ![n, 1]⟩ : Shape).Idx → EReal) :
    (⟨2, ![n, 1]⟩ : Shape).Idx → EReal :=
  fun j => activator (rowDot S U (j 0)) (U j) (V j) (P j)

/-- The second species' rates as a column. -/
def dv {n : ℕ} (U V P : (⟨2, ![n, 1]⟩ : Shape).Idx → EReal) : (⟨2, ![n, 1]⟩ : Shape).Idx → EReal :=
  fun j => inhibitor (U j) (V j) (P j)

end Cert.ReactionDiffusion

end
-- ==== Proof.ReferenceRead.lean ====
/-
  What the reference program computes, read entry by entry.

  The reference cuts the state vector y (2n numbers) into its two halves and stands each up as a column: u holds
  y_0 … y_{n−1} and v holds y_n … y_{2n−1}. It then forms S·u with one matrix product and the two rate columns with
  pointwise arithmetic. Read at an entry (r, 0), its first rate column is the first species' rate of row r, with the
  matrix product's entry the sum Σ_k S_{r,k} · u_k, and its second rate column is the second species' rate of row r.
  The numbers 8, 1 and −0.01 appear as scalars spread over the column; at every entry they are their words.
-/
import proofs.«103282_j16355235463647_2_alg».proof.Proof.Gen.ReferenceIdeal.Read
import proofs.«103282_j16355235463647_2_alg».proof.Proof.Reaction

noncomputable section

namespace Cert.ReactionDiffusion.Reference

open Idealize.ShloMosaic Idealize.ShloMosaic.ValueIdx
open Cert.ReferenceIdeal Cert.ReferenceIdeal.Read

/-- The reference's column u: the first half of the state vector, stood up. -/
abbrev colU (y : S16384.Idx → EReal) : S8192x1.Idx → EReal := val_main_v1 (F := Ideal) y
/-- The reference's column v: the second half of the state vector, stood up. -/
abbrev colV (y : S16384.Idx → EReal) : S8192x1.Idx → EReal := val_main_v3 (F := Ideal) y

/-- The left operand of the matrix product at output entry (r, ·) and summation index k is S's entry (r, k). -/
theorem lidx_eq (r : Fin 8192) (z : Fin 1) (k : Fin 8192) : lidx_main_v4 (ix2 r z) k = ix2 r k :=
  funext fun a => Fin.ext (by
    match a with
    | ⟨0, _⟩ => rfl
    | ⟨1, _⟩ => rfl)

/-- The right operand there is the column's entry (k, 0). -/
theorem ridx_eq (r : Fin 8192) (z : Fin 1) (k : Fin 8192) : ridx_main_v4 (ix2 r z) k = ix2 k (0 : Fin 1) :=
  funext fun a => Fin.ext (by
    match a with
    | ⟨0, _⟩ => rfl
    | ⟨1, _⟩ => show z.val = 0; omega)

/-- The reference's first rate column is the first species' rates of its columns u and v. -/
theorem first_eq (y : S16384.Idx → EReal) (S : S8192x8192.Idx → EReal) (P : S8192x1.Idx → EReal) :
    val_main_v14 (F := Ideal) y S P = du S (colU y) (colV y) P := by
  funext j
  obtain ⟨r, z, rfl⟩ : ∃ (r : Fin 8192) (z : Fin 1), j = ix2 r z := ⟨j 0, j 1, eq_ix2 j⟩
  rw [val_main_v14_apply, val_main_v12_apply, val_main_v4_apply, val_main_v11_apply, val_main_v9_apply,
    val_main_v6_apply, val_main_v8_apply, val_main_v10_apply, val_main_v13_apply, val_main_v5_apply,
    val_main_v7_apply, val_main_cst_apply, val_main_cst_0_apply]
  simp only [lidx_eq, ridx_eq]
  rfl

/-- The reference's second rate column is the second species' rates of its columns u and v. -/
theorem second_eq (y : S16384.Idx → EReal) (P : S8192x1.Idx → EReal) :
    val_main_v23 (F := Ideal) y P = dv (colU y) (colV y) P := by
  funext j
  rw [val_main_v23_apply, val_main_v21_apply, val_main_v20_apply, val_main_v16_apply, val_main_v19_apply,
    val_main_v17_apply, val_main_v15_apply, val_main_v18_apply, val_main_v22_apply, val_main_cst_1_apply,
    val_main_cst_2_apply, val_main_cst_3_apply]
  rfl

end Cert.ReactionDiffusion.Reference

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.LibRowDot.lean ====
/-
  A matrix–vector product taken a strip of rows at a time.

  To form S·u without a matrix unit, a program takes a strip of `a` rows of S (an `[a, n]` array), repeats the
  vector u — held as one row, `[1, n]` — on every row of the strip, multiplies the two entry by entry, adds each
  row of products up starting from zero, and stands the `a` sums up as an `[a, 1]` column. On the extended reals
  entry (q, 0) of that column is Σ_k strip_{q,k} · u_k: a sum over one axis is the sum over that axis's coordinates,
  the repeated row reads u_k in every row, and the layout steps move nothing.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«103282_j16355235463647_2_alg».proof.Proof.LibColumn

noncomputable section

namespace Idealize.ShloMosaic.RowDot

open Idealize.ShloMosaic Idealize.ShloMosaic.ValueIdx

/-- A strip of `a` rows times the row `w` repeated on every row, each row of products added up from zero, the sums
    stood up as a column and the column cast to its own shape once more: entry (q, z) is Σ_k x_{q,k} · w_{0,k},
    whatever the unit coordinate z. -/
theorem strip_sum {a n : ℕ} (x : FVec Ideal ⟨2, ![a, n]⟩ .f32) (w : FVec Ideal ⟨2, ![1, n]⟩ .f32)
    (hb : (⟨2, ![1, n]⟩ : Shape).Broadcasts ⟨2, ![a, n]⟩)
    (hr : (⟨2, ![a, n]⟩ : Shape).Reduces [(1 : Fin 2)] ⟨1, ![a]⟩)
    (hφ : FKind.Formats .f32) (hacc : (0x00000000#32 : BitVec FTy.f32.bits) = FKind.add.neutral .f32 hφ)
    (h1 : (⟨1, ![a]⟩ : Shape).ShapeCasts ⟨2, ![a, 1]⟩) (h2 : (⟨2, ![a, 1]⟩ : Shape).ShapeCasts ⟨2, ![a, 1]⟩)
    (q : Fin a) (z : Fin 1) :
    shapeCast ⟨2, ![a, 1]⟩ (shapeCast ⟨2, ![a, 1]⟩
        (multiReduction .add [(1 : Fin 2)] ⟨1, ![a]⟩ (mulf x (broadcastTo ⟨2, ![a, n]⟩ w hb)) 0x00000000#32 hr hφ hacc) h1) h2 (ix2 q z)
      = ∑ k : Fin n, x (ix2 q k) * w (ix2 (0 : Fin 1) k) := by
  rw [shapeCast_self, Idealize.ShloMosaic.Column.shapeCast_a_a1_apply, Ideal.multiReduction_add_single]
  show ∑ k : Fin n, mulf x (broadcastTo ⟨2, ![a, n]⟩ w hb) (hr.lift (ix1 q) k) = _
  refine Finset.sum_congr rfl fun k _ => ?_
  have e : hr.lift (ix1 q) k = ix2 q k := funext fun d => Fin.ext (by
    match d with
    | ⟨0, _⟩ => rfl
    | ⟨1, _⟩ => rfl)
  rw [e]
  show x (ix2 q k) * broadcastTo ⟨2, ![a, n]⟩ w hb (ix2 q k) = _
  rw [broadcastTo_1b_ab_apply]

end Idealize.ShloMosaic.RowDot

end
-- ==== Proof.Body.lean ====
/-
  What one grid point of the kernel leaves in its two output blocks.

  At a grid point the kernel holds a block of 512 rows of the matrix S, the whole row (u_0 … u_{n−1}), and the
  512-entry blocks of the columns u, v and p that belong to the same rows. It forms the block's diffusion column in
  eight strips of 64 rows: each strip is multiplied, entry by entry, by the row repeated on all 64 rows, every row of
  products is added up, and the 64 sums are written to rows 64·c … 64·c + 63 of a 512-entry scratch column. The
  eight strips tile the scratch column, so reading it back whole gives, at row q of the block, the sum
  Σ_k S_{q,k} · u_k over the block's row q. The two output blocks are then the first and the second species' rates
  of that diffusion column and the three column blocks, entry by entry.
-/
import proofs.«103282_j16355235463647_2_alg».proof.Proof.Gen.KernelIdeal.Frame
import proofs.«103282_j16355235463647_2_alg».proof.Proof.Reaction
import proofs.«103282_j16355235463647_2_alg».proof.Proof.LibRowDot
import Idealize.ShloMosaic.Lib.Pipeline.Value
import Idealize.ShloMosaic.Lib.Tactic

set_option maxRecDepth 16384

noncomputable section

namespace Cert.ReactionDiffusion.Body

open Idealize.ShloMosaic Idealize.ShloMosaic.TcCoe Idealize.ShloMosaic.ValueIdx Idealize.SL.Sem
open Cert.KernelIdeal Cert.KernelIdeal.Gen Idealize.ShloMosaic.RowDot

theorem zero_offsets : (![0, 0] : Fin 2 → Nat) = fun _ => 0 := funext fun a => by fin_cases a <;> rfl

/-- The diffusion column of a block of rows against the row (u_0 … u_{n−1}). -/
def blockDot (x0 : Vec Ideal S512x8192 .f32) (w : Vec Ideal S1x8192 .f32) : S512x1.Idx → EReal :=
  fun y => ∑ k : Fin 8192, x0 (ix2 (y 0) k) * w (ix2 (0 : Fin 1) k)

/-- The row is cast to its own shape before use: nothing changes. -/
theorem row_self (w : Vec Ideal S1x8192 .f32) : k0_pay5 (F := Ideal) w = w := by
  unfold k0_pay5
  exact shapeCast_self _ _

/-! Each of the eight strips' 64 sums, read at an entry. -/

theorem pay6_apply (w : Vec Ideal S1x8192 .f32) (s : Vec Ideal S64x8192 .f32) (q : Fin 64) (z : Fin 1) :
    k0_pay6 (F := Ideal) w s (ix2 q z) = ∑ k : Fin 8192, s (ix2 q k) * w (ix2 (0 : Fin 1) k) := by
  unfold k0_pay6
  rw [row_self]
  exact strip_sum s w _ _ _ _ _ _ q z

theorem pay7_apply (w : Vec Ideal S1x8192 .f32) (s : Vec Ideal S64x8192 .f32) (q : Fin 64) (z : Fin 1) :
    k0_pay7 (F := Ideal) w s (ix2 q z) = ∑ k : Fin 8192, s (ix2 q k) * w (ix2 (0 : Fin 1) k) := by
  unfold k0_pay7
  rw [row_self]
  exact strip_sum s w _ _ _ _ _ _ q z

theorem pay8_apply (w : Vec Ideal S1x8192 .f32) (s : Vec Ideal S64x8192 .f32) (q : Fin 64) (z : Fin 1) :
    k0_pay8 (F := Ideal) w s (ix2 q z) = ∑ k : Fin 8192, s (ix2 q k) * w (ix2 (0 : Fin 1) k) := by
  unfold k0_pay8
  rw [row_self]
  exact strip_sum s w _ _ _ _ _ _ q z

theorem pay9_apply (w : Vec Ideal S1x8192 .f32) (s : Vec Ideal S64x8192 .f32) (q : Fin 64) (z : Fin 1) :
    k0_pay9 (F := Ideal) w s (ix2 q z) = ∑ k : Fin 8192, s (ix2 q k) * w (ix2 (0 : Fin 1) k) := by
  unfold k0_pay9
  rw [row_self]
  exact strip_sum s w _ _ _ _ _ _ q z

theorem pay10_apply (w : FVec Ideal S1x8192 .f32) (s : Vec Ideal S64x8192 .f32) (q : Fin 64) (z : Fin 1) :
    k0_pay10 (F := Ideal) w s (ix2 q z) = ∑ k : Fin 8192, s (ix2 q k) * w (ix2 (0 : Fin 1) k) := by
  unfold k0_pay10
  exact strip_sum s w _ _ _ _ _ _ q z

theorem pay11_apply (w : FVec Ideal S1x8192 .f32) (s : Vec Ideal S64x8192 .f32) (q : Fin 64) (z : Fin 1) :
    k0_pay11 (F := Ideal) w s (ix2 q z) = ∑ k : Fin 8192, s (ix2 q k) * w (ix2 (0 : Fin 1) k) := by
  unfold k0_pay11
  exact strip_sum s w _ _ _ _ _ _ q z

theorem pay12_apply (w : FVec Ideal S1x8192 .f32) (s : Vec Ideal S64x8192 .f32) (q : Fin 64) (z : Fin 1) :
    k0_pay12 (F := Ideal) w s (ix2 q z) = ∑ k : Fin 8192, s (ix2 q k) * w (ix2 (0 : Fin 1) k) := by
  unfold k0_pay12
  exact strip_sum s w _ _ _ _ _ _ q z

theorem pay13_apply (w : FVec Ideal S1x8192 .f32) (s : Vec Ideal S64x8192 .f32) (q : Fin 64) (z : Fin 1) :
    k0_pay13 (F := Ideal) w s (ix2 q z) = ∑ k : Fin 8192, s (ix2 q k) * w (ix2 (0 : Fin 1) k) := by
  unfold k0_pay13
  exact strip_sum s w _ _ _ _ _ _ q z

/-- A strip that starts at row `off` of the block: its row q is the block's row off + q, which is also where
    its sum lands in the scratch column. -/
theorem strip_at (off : ℕ) (inbS : ∀ a, (![off, 0] : Fin 2 → ℕ) a + S64x8192.size a ≤ S512x8192.size a)
    (inbA : ∀ a, (![off, 0] : Fin 2 → ℕ) a + S64x1.size a ≤ S512x1.size a)
    (x0 : Vec Ideal S512x8192 .f32) (w : Vec Ideal S1x8192 .f32) (q : Fin 64) (z : Fin 1) :
    (∑ k : Fin 8192, View.ld x0 (Rect.unit (s := S512x8192) ![off, 0] S64x8192.size inbS) (ix2 q k) * w (ix2 (0 : Fin 1) k))
      = blockDot x0 w ((Rect.unit (s := S512x1) ![off, 0] S64x1.size inbA).emb (ix2 q z)) := by
  unfold blockDot
  refine Finset.sum_congr rfl fun k _ => ?_
  show x0 ((Rect.unit (s := S512x8192) ![off, 0] S64x8192.size inbS).idx (ix2 q k)) * _ = _
  congr 2
  funext a
  apply Fin.ext
  match a with
  | ⟨0, _⟩ => rfl
  | ⟨1, _⟩ => show 0 + 1 * k.val = k.val; omega

/-- The scratch column read back whole after the eight strips: the block's diffusion column. -/
theorem scratch_eq {κ : Kind} {sp : Space} (v : View sig κ sp S512x1 .f32) (L : List (View.Piece (Elt Ideal) S512x1 .f32))
    (G : S512x1.Idx → EReal) (hL : ∀ p ∈ L, ∀ x : p.1.shape.Idx, p.2 x = G (p.1.emb x))
    (hc : ∀ y : S512x1.Idx, ∃ p ∈ L, y ∈ p.1.set) (inb : ∀ a, (![0, 0] : Fin 2 → ℕ) a + S512x1.size a ≤ S512x1.size a) :
    v.readCov L (Rect.unit (s := S512x1) ![0, 0] S512x1.size inb).toLoadRect = G := by
  rw [View.readCov_eq_canon_ld _ _ _ hc, View.ld_unit_zero zero_offsets]
  exact funext fun y => View.canon_apply_of_pieces G L hL y (hc y)

/-- The first output's arithmetic, entry by entry. -/
theorem first_apply (d u v p : FVec Ideal S512x1 .f32) (y : S512x1.Idx) :
    k0_pay3 (F := Ideal) d u v p y = activator (d y) (u y) (v y) (p y) := by
  unfold k0_pay3 k0_pay1 k0_pay2
  simp only [shapeCast_self]
  rfl

/-- The second output's arithmetic, entry by entry. -/
theorem second_apply (u v p : FVec Ideal S512x1 .f32) (y : S512x1.Idx) :
    k0_pay4 (F := Ideal) u v p y = inhibitor (u y) (v y) (p y) := by
  unfold k0_pay4 k0_pay1 k0_pay2
  simp only [shapeCast_self]
  rfl

/-- The first output block after the body: the first species' rates of the block's diffusion column and the
    three column blocks. -/
theorem out_first (c : Dev nD) (i : grid0.Coords) (arg1 : Memref sig .tc .vmem S512x8192 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (x0 : Vec Ideal S512x8192 .f32) (x1 : Vec Ideal S1x8192 .f32) (x2 : Vec Ideal S512x1 .f32) (x3 : Vec Ideal S512x1 .f32) (x4 : Vec Ideal S512x1 .f32) :
    out0_A_5 (F := Ideal) c i arg1 harg1 arg2 harg2 arg3 harg3 arg4 harg4 arg5 harg5 arg6 harg6 arg7 harg7 arg8 harg8 x0 x1 x2 x3 x4
      = fun y => activator (blockDot x0 x1 y) (x2 y) (x3 y) (x4 y) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero_offsets]
  simp only [View.readAt_eq_ld, harg1.read_unread, harg2.read_unread, harg3.read_unread, harg4.read_unread,
    harg5.read_unread, View.ld_unit_zero (S := S512x1) zero_offsets, View.ld_unit_zero (S := S1x8192) zero_offsets,
    row_self]
  rw [scratch_eq arg8.view _ (blockDot x0 x1)]
  · funext y
    exact first_apply _ _ _ _ y
  · intro p hp
    simp only [List.mem_cons, List.mem_nil_iff, or_false] at hp
    rcases hp with rfl | rfl | rfl | rfl | rfl | rfl | rfl | rfl
    · intro x
      obtain ⟨q, z, rfl⟩ : ∃ (q : Fin 64) (z : Fin 1), x = ix2 q z := ⟨x 0, x 1, eq_ix2 x⟩
      exact (pay13_apply _ _ q z).trans (strip_at 448 inb_S512x8192_S64x8192_448_0 inb_S512x1_S64x1_448_0 x0 x1 q z)
    · intro x
      obtain ⟨q, z, rfl⟩ : ∃ (q : Fin 64) (z : Fin 1), x = ix2 q z := ⟨x 0, x 1, eq_ix2 x⟩
      exact (pay12_apply _ _ q z).trans (strip_at 384 inb_S512x8192_S64x8192_384_0 inb_S512x1_S64x1_384_0 x0 x1 q z)
    · intro x
      obtain ⟨q, z, rfl⟩ : ∃ (q : Fin 64) (z : Fin 1), x = ix2 q z := ⟨x 0, x 1, eq_ix2 x⟩
      exact (pay11_apply _ _ q z).trans (strip_at 320 inb_S512x8192_S64x8192_320_0 inb_S512x1_S64x1_320_0 x0 x1 q z)
    · intro x
      obtain ⟨q, z, rfl⟩ : ∃ (q : Fin 64) (z : Fin 1), x = ix2 q z := ⟨x 0, x 1, eq_ix2 x⟩
      exact (pay10_apply _ _ q z).trans (strip_at 256 inb_S512x8192_S64x8192_256_0 inb_S512x1_S64x1_256_0 x0 x1 q z)
    · intro x
      obtain ⟨q, z, rfl⟩ : ∃ (q : Fin 64) (z : Fin 1), x = ix2 q z := ⟨x 0, x 1, eq_ix2 x⟩
      exact (pay9_apply _ _ q z).trans (strip_at 192 inb_S512x8192_S64x8192_192_0 inb_S512x1_S64x1_192_0 x0 x1 q z)
    · intro x
      obtain ⟨q, z, rfl⟩ : ∃ (q : Fin 64) (z : Fin 1), x = ix2 q z := ⟨x 0, x 1, eq_ix2 x⟩
      exact (pay8_apply _ _ q z).trans (strip_at 128 inb_S512x8192_S64x8192_128_0 inb_S512x1_S64x1_128_0 x0 x1 q z)
    · intro x
      obtain ⟨q, z, rfl⟩ : ∃ (q : Fin 64) (z : Fin 1), x = ix2 q z := ⟨x 0, x 1, eq_ix2 x⟩
      exact (pay7_apply _ _ q z).trans (strip_at 64 inb_S512x8192_S64x8192_64_0 inb_S512x1_S64x1_64_0 x0 x1 q z)
    · intro x
      obtain ⟨q, z, rfl⟩ : ∃ (q : Fin 64) (z : Fin 1), x = ix2 q z := ⟨x 0, x 1, eq_ix2 x⟩
      exact (pay6_apply _ _ q z).trans (strip_at 0 inb_S512x8192_S64x8192_0_0 inb_S512x1_S64x1_0_0 x0 x1 q z)
  · exact View.cover_of_tiledL _ S64x1.size (by sl_kernel_rfl)

/-- The second output block after the body: the second species' rates of the three column blocks. -/
theorem out_second (c : Dev nD) (i : grid0.Coords) (arg1 : Memref sig .tc .vmem S512x8192 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (x0 : Vec Ideal S512x8192 .f32) (x1 : Vec Ideal S1x8192 .f32) (x2 : Vec Ideal S512x1 .f32) (x3 : Vec Ideal S512x1 .f32) (x4 : Vec Ideal S512x1 .f32) :
    out0_A_6 (F := Ideal) c i arg1 harg1 arg2 harg2 arg3 harg3 arg4 harg4 arg5 harg5 arg6 harg6 arg7 harg7 arg8 harg8 x0 x1 x2 x3 x4
      = fun y => inhibitor (x2 y) (x3 y) (x4 y) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero_offsets]
  simp only [View.readAt_eq_ld, harg3.read_unread, harg4.read_unread, harg5.read_unread,
    View.ld_unit_zero (S := S512x1) zero_offsets]
  funext y
  exact second_apply _ _ _ y

end Cert.ReactionDiffusion.Body

end
-- ==== Proof.Arrays.lean ====
/-
  What the kernel's two output arrays hold after the run.

  The launch has sixteen grid points. Point t works on rows 512·t … 512·t + 511: its block of the matrix S is those
  rows (all columns), its blocks of the columns u, v and p are those rows, the row (u_0 … u_{n−1}) is handed over
  whole at every point, and its two output blocks are rows 512·t … 512·t + 511 of the two output columns. The host
  program in front of the launch cuts the state vector y into its halves and lays the first half out twice, as a row
  and as a column, and the second half as a column: entry (0, k) of the row and entry (k, 0) of the column are the
  same number y_k.

  So what point t writes back is rows 512·t … 512·t + 511 of the two rate columns of S, u, v and p, and since the
  sixteen blocks tile the 8192 rows, after the run each output array is the whole rate column.
-/
import proofs.«103282_j16355235463647_2_alg».proof.Proof.Gen.KernelIdeal.Frame
import proofs.«103282_j16355235463647_2_alg».proof.Proof.Body
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.ReactionDiffusion.Arrays

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-! ## The state vector's two halves, as the host program in front of the launch lays them out -/

abbrev firstHalf (y : S16384.Idx → EReal) : S8192.Idx → EReal := extractStridedSlice S8192 ![0] y slices_S16384_S8192_0
abbrev secondHalf (y : S16384.Idx → EReal) : S8192.Idx → EReal := extractStridedSlice S8192 ![8192] y slices_S16384_S8192_8192
/-- u as a column, v as a column, u as a row. -/
abbrev colU (y : S16384.Idx → EReal) : S8192x1.Idx → EReal := shapeCast S8192x1 (firstHalf y) shapeCasts_S8192_S8192x1
abbrev colV (y : S16384.Idx → EReal) : S8192x1.Idx → EReal := shapeCast S8192x1 (secondHalf y) shapeCasts_S8192_S8192x1
abbrev rowU (y : S16384.Idx → EReal) : S1x8192.Idx → EReal := shapeCast S1x8192 (firstHalf y) shapeCasts_S8192_S1x8192

/-- Entry (0, k) of the row and entry (k, 0) of the column are both entry k of the first half. -/
theorem row_col (y : S16384.Idx → EReal) (k : Fin 8192) : rowU y (ix2 (0 : Fin 1) k) = colU y (ix2 k (0 : Fin 1)) :=
  (shapeCast_a_1a_apply (firstHalf y) shapeCasts_S8192_S1x8192 0 k).trans
    (Idealize.ShloMosaic.Column.shapeCast_a_a1_apply (firstHalf y) shapeCasts_S8192_S8192x1 k 0).symm

/-- The argument arrays as launched. -/
abbrev argY (c : Dev nD) : S16384.Idx → EReal := m ((c : Thread nD τ).loc main_arg1)
abbrev argS (c : Dev nD) : S8192x8192.Idx → EReal := m ((c : Thread nD τ).loc main_arg2)
abbrev argP (c : Dev nD) : S8192x1.Idx → EReal := m ((c : Thread nD τ).loc main_arg3)

/-! ## What the launch finds in its operands -/

theorem found_row (c : Dev nD) : (V m c main_v2 : S1x8192.Idx → EReal) = rowU (argY m c) := by
  show StableHlo.after hostOps0 (fun b => m (c, b)) (Proc.devRef .tc main_v2) = _
  after_results
  rfl

theorem found_colU (c : Dev nD) : (V m c main_v3 : S8192x1.Idx → EReal) = colU (argY m c) := by
  show StableHlo.after hostOps0 (fun b => m (c, b)) (Proc.devRef .tc main_v3) = _
  after_results
  rfl

theorem found_colV (c : Dev nD) : (V m c main_v4 : S8192x1.Idx → EReal) = colV (argY m c) := by
  show StableHlo.after hostOps0 (fun b => m (c, b)) (Proc.devRef .tc main_v4) = _
  after_results
  rfl

/-- The two rate columns of the arrays as the launch finds them. -/
abbrev firstRates (c : Dev nD) : S8192x1.Idx → EReal :=
  du (n := 8192) (V m c main_arg2) (V m c main_v3) (V m c main_v4) (V m c main_arg3)
abbrev secondRates (c : Dev nD) : S8192x1.Idx → EReal :=
  dv (n := 8192) (V m c main_v3) (V m c main_v4) (V m c main_arg3)

/-! ## The blocks -/

/-- The printed index maps over the grid: every window that moves is at block row t at point t, and no window has a
    second block column. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- One entry of the first output block, from where the blocks' entries sit in the whole arrays: if row q of the
    matrix block is row i₀ of S, the row block is the column u laid flat, and entry (q, ·) of each column block is
    entry i of its column, then the entry is entry i of the first rate column. -/
theorem first_entry (x0 : Vec Ideal S512x8192 .f32) (x1 : Vec Ideal S1x8192 .f32) (x2 x3 x4 : Vec Ideal S512x1 .f32)
    (S : S8192x8192.Idx → EReal) (U V P : S8192x1.Idx → EReal) (q : Fin 512) (z : Fin 1) (i : S8192x1.Idx)
    (h0 : ∀ k : Fin 8192, x0 (ix2 q k) = S (ix2 (i 0) k))
    (h1 : ∀ k : Fin 8192, x1 (ix2 (0 : Fin 1) k) = U (ix2 k (0 : Fin 1)))
    (h2 : x2 (ix2 q z) = U i) (h3 : x3 (ix2 q z) = V i) (h4 : x4 (ix2 q z) = P i) :
    activator (Body.blockDot x0 x1 (ix2 q z)) (x2 (ix2 q z)) (x3 (ix2 q z)) (x4 (ix2 q z)) = du (n := 8192) S U V P i := by
  unfold du rowDot Body.blockDot
  rw [h2, h3, h4]
  congr 1
  refine Finset.sum_congr rfl fun k _ => ?_
  show x0 (ix2 q k) * x1 (ix2 (0 : Fin 1) k) = S (ix2 (i 0) k) * U (ix2 k (0 : Fin 1))
  rw [h0 k, h1 k]

/-- One entry of the second output block, likewise. -/
theorem second_entry (x2 x3 x4 : Vec Ideal S512x1 .f32) (U V P : S8192x1.Idx → EReal) (q : Fin 512) (z : Fin 1)
    (i : S8192x1.Idx) (h2 : x2 (ix2 q z) = U i) (h3 : x3 (ix2 q z) = V i) (h4 : x4 (ix2 q z) = P i) :
    inhibitor (x2 (ix2 q z)) (x3 (ix2 q z)) (x4 (ix2 q z)) = dv (n := 8192) U V P i := by
  unfold dv
  rw [h2, h3, h4]

set_option maxHeartbeats 1000000 in
/-- WHAT POINT t WRITES BACK to the first output: its block of the first rate column. -/
theorem flushed_first (c : Dev nD) (t : Fin cfg0.N) :
    (dats m 0 c).flushed 5 t = ((cfg0.win 5).blk t).view.read (Elt Ideal) (firstRates m c) := by
  show (cfg0.win 5).cut (grid0.coords t) ((dats m 0 c).after 5 t) = _
  rw [after0_5]
  have hout : (outsAt0 m c t).1 = fun y => activator (Body.blockDot (iblk m c 0 t) (iblk m c 1 t) y)
      ((iblk m c 2 t : Vec Ideal S512x1 .f32) y) ((iblk m c 3 t : Vec Ideal S512x1 .f32) y) ((iblk m c 4 t : Vec Ideal S512x1 .f32) y) :=
    Body.out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)
  rw [hout]
  obtain ⟨h00, h01, h10, h11, h20, h21, h30, h31, h40, h41, h50, h51, -⟩ := index_facts t
  funext j
  obtain ⟨q, z, rfl⟩ : ∃ (q : Fin 512) (z : Fin 1), j = ix2 q z := ⟨j 0, j 1, eq_ix2 j⟩
  refine first_entry (iblk m c 0 t) (iblk m c 1 t) (iblk m c 2 t) (iblk m c 3 t) (iblk m c 4 t)
    (V m c main_arg2) (V m c main_v3) (V m c main_v4) (V m c main_arg3) q z (((cfg0.win 5).blk t).view.emb (ix2 q z)) ?_ ?_ ?_ ?_ ?_
  · intro k
    have e : ((cfg0.win 0).blk t).view.emb (ix2 q k) = (ix2 ((((cfg0.win 5).blk t).view.emb (ix2 q z)) 0) k : S8192x8192.Idx) :=
      funext fun a => Fin.ext (by
        match a with
        | ⟨0, _⟩ => show win0_0.index t (0 : Fin 2) * 512 + 1 * q.val = win0_5.index t (0 : Fin 2) * 512 + 1 * q.val; omega
        | ⟨1, _⟩ => show win0_0.index t (1 : Fin 2) * 8192 + 1 * k.val = k.val; omega)
    show V m c main_arg2 (((cfg0.win 0).blk t).view.emb (ix2 q k)) = _
    rw [e]
  · intro k
    have e : ((cfg0.win 1).blk t).view.emb (ix2 (0 : Fin 1) k) = (ix2 (0 : Fin 1) k : S1x8192.Idx) :=
      funext fun a => Fin.ext (by
        match a with
        | ⟨0, _⟩ => show win0_1.index t (0 : Fin 2) * 1 + 1 * 0 = 0; omega
        | ⟨1, _⟩ => show win0_1.index t (1 : Fin 2) * 8192 + 1 * k.val = k.val; omega)
    show V m c main_v2 (((cfg0.win 1).blk t).view.emb (ix2 (0 : Fin 1) k)) = V m c main_v3 (ix2 k (0 : Fin 1))
    rw [e, found_row, found_colU, row_col]
  · show V m c main_v3 (((cfg0.win 2).blk t).view.emb (ix2 q z)) = V m c main_v3 (((cfg0.win 5).blk t).view.emb (ix2 q z))
    congr 1
  · show V m c main_v4 (((cfg0.win 3).blk t).view.emb (ix2 q z)) = V m c main_v4 (((cfg0.win 5).blk t).view.emb (ix2 q z))
    congr 1
  · show V m c main_arg3 (((cfg0.win 4).blk t).view.emb (ix2 q z)) = V m c main_arg3 (((cfg0.win 5).blk t).view.emb (ix2 q z))
    congr 1

set_option maxHeartbeats 1000000 in
/-- WHAT POINT t WRITES BACK to the second output: its block of the second rate column. -/
theorem flushed_second (c : Dev nD) (t : Fin cfg0.N) :
    (dats m 0 c).flushed 6 t = ((cfg0.win 6).blk t).view.read (Elt Ideal) (secondRates m c) := by
  show (cfg0.win 6).cut (grid0.coords t) ((dats m 0 c).after 6 t) = _
  rw [after0_6]
  have hout : (outsAt0 m c t).2 = fun y => inhibitor
      ((iblk m c 2 t : Vec Ideal S512x1 .f32) y) ((iblk m c 3 t : Vec Ideal S512x1 .f32) y) ((iblk m c 4 t : Vec Ideal S512x1 .f32) y) :=
    Body.out_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)
  rw [hout]
  funext j
  obtain ⟨q, z, rfl⟩ : ∃ (q : Fin 512) (z : Fin 1), j = ix2 q z := ⟨j 0, j 1, eq_ix2 j⟩
  refine second_entry (iblk m c 2 t) (iblk m c 3 t) (iblk m c 4 t)
    (V m c main_v3) (V m c main_v4) (V m c main_arg3) q z (((cfg0.win 6).blk t).view.emb (ix2 q z)) ?_ ?_ ?_
  · show V m c main_v3 (((cfg0.win 2).blk t).view.emb (ix2 q z)) = V m c main_v3 (((cfg0.win 6).blk t).view.emb (ix2 q z))
    congr 1
  · show V m c main_v4 (((cfg0.win 3).blk t).view.emb (ix2 q z)) = V m c main_v4 (((cfg0.win 6).blk t).view.emb (ix2 q z))
    congr 1
  · show V m c main_arg3 (((cfg0.win 4).blk t).view.emb (ix2 q z)) = V m c main_arg3 (((cfg0.win 6).blk t).view.emb (ix2 q z))
    congr 1

/-- An entry of an output column is in point t's block iff each coordinate is in the block's range. -/
theorem mem_first (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v5_0).slice (win0_5.rect t)).set ↔ _
  rw [View.set_slice_whole, Rect.mem_set_unit]
  exact Iff.rfl

theorem mem_second (t : Fin cfg0.N) (i : S8192x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v5_1).slice (win0_6.rect t)).set ↔ _
  rw [View.set_slice_whole, Rect.mem_set_unit]
  exact Iff.rfl

/-- The point whose blocks hold row r: r / 512. -/
def pointOf (i : S8192x1.Idx) : Fin cfg0.N :=
  ⟨(i 0).val / 512, by rw [show cfg0.N = 16 from N_0]; have h0 : (i 0).val < 8192 := (i 0).isLt; omega⟩

/-- THE FIRST OUTPUT ARRAY after the run: the first rate column. -/
theorem final_first (c : Dev nD) : (dats m 0 c).arrAt 5 cfg0.N = firstRates m c :=
  (dats m 0 c).arrAt_eq_of_cover 5 (firstRates m c) (fun t _ => flushed_first m c t) fun i =>
    ⟨pointOf i, flush0_5 _, by
      obtain ⟨-, -, -, -, -, -, -, -, -, -, h50, h51, -⟩ := index_facts (pointOf i)
      have h0 : (i 0).val < 8192 := (i 0).isLt
      have h1 : (i 1).val < 1 := (i 1).isLt
      have hp : (pointOf i).val = (i 0).val / 512 := rfl
      rw [mem_first]
      intro a
      match a with
      | ⟨0, _⟩ => show win0_5.index (pointOf i) (0 : Fin 2) * 512 ≤ (i 0).val ∧ (i 0).val < win0_5.index (pointOf i) (0 : Fin 2) * 512 + 512; omega
      | ⟨1, _⟩ => show win0_5.index (pointOf i) (1 : Fin 2) * 1 ≤ (i 1).val ∧ (i 1).val < win0_5.index (pointOf i) (1 : Fin 2) * 1 + 1; omega⟩

/-- THE SECOND OUTPUT ARRAY after the run: the second rate column. -/
theorem final_second (c : Dev nD) : (dats m 0 c).arrAt 6 cfg0.N = secondRates m c :=
  (dats m 0 c).arrAt_eq_of_cover 6 (secondRates m c) (fun t _ => flushed_second m c t) fun i =>
    ⟨pointOf i, flush0_6 _, by
      obtain ⟨-, -, -, -, -, -, -, -, -, -, -, -, h60, h61⟩ := index_facts (pointOf i)
      have h0 : (i 0).val < 8192 := (i 0).isLt
      have h1 : (i 1).val < 1 := (i 1).isLt
      have hp : (pointOf i).val = (i 0).val / 512 := rfl
      rw [mem_second]
      intro a
      match a with
      | ⟨0, _⟩ => show win0_6.index (pointOf i) (0 : Fin 2) * 512 ≤ (i 0).val ∧ (i 0).val < win0_6.index (pointOf i) (0 : Fin 2) * 512 + 512; omega
      | ⟨1, _⟩ => show win0_6.index (pointOf i) (1 : Fin 2) * 1 ≤ (i 1).val ∧ (i 1).val < win0_6.index (pointOf i) (1 : Fin 2) * 1 + 1; omega⟩

end Cert.ReactionDiffusion.Arrays

end
-- ==== Proof.Result.lean ====
/-
  The kernel's result as one function of its arguments.

  After the launch the host program flattens each of the two output columns to a vector of n numbers and lays the two
  vectors end to end. The output columns are the two rate columns of S, of the columns u and v cut from the state
  vector y, and of p; so the result is: the first species' rates, then the second species' rates.
-/
import proofs.«103282_j16355235463647_2_alg».proof.Proof.Arrays

set_option maxRecDepth 16384

noncomputable section

namespace Cert.ReactionDiffusion.Result

open Idealize.ShloMosaic Idealize.ShloMosaic.TcCoe Idealize.ShloMosaic.ValueIdx Idealize.SL.Sem
open Idealize.ShloMosaic.Pipeline (Dat)
open Cert.KernelIdeal Cert.KernelIdeal.Gen Cert.ReactionDiffusion.Arrays

variable (m : (ℓ : Loc nD τ sig) → Buf (Elt Ideal) ℓ) (ρ : Dev nD → PrngReg)

/-- Two columns flattened and laid end to end. -/
def joined (A B : S8192x1.Idx → EReal) : S16384.Idx → EReal :=
  concatenate S16384 0 [⟨S8192, shapeCast S8192 A shapeCasts_S8192x1_S8192⟩, ⟨S8192, shapeCast S8192 B shapeCasts_S8192x1_S8192⟩]
    concatenates_S8192_S8192_S16384_d0

/-- The result from the state vector, the diffusion matrix and the parameters. -/
def result (y : S16384.Idx → EReal) (S : S8192x8192.Idx → EReal) (P : S8192x1.Idx → EReal) : S16384.Idx → EReal :=
  joined (du (n := 8192) S (colU y) (colV y) P) (dv (n := 8192) (colU y) (colV y) P)

/-- The rate columns of the arrays the launch finds are those of the launched arguments. -/
theorem rates_first (c : Dev nD) :
    firstRates m c = du (n := 8192) (argS m c) (colU (argY m c)) (colV (argY m c)) (argP m c) := by
  show du (n := 8192) (V m c main_arg2) (V m c main_v3) (V m c main_v4) (V m c main_arg3) = _
  rw [found_colU, found_colV, V_main_arg2, V_main_arg3]

theorem rates_second (c : Dev nD) :
    secondRates m c = dv (n := 8192) (colU (argY m c)) (colV (argY m c)) (argP m c) := by
  show dv (n := 8192) (V m c main_v3) (V m c main_v4) (V m c main_arg3) = _
  rw [found_colU, found_colV, V_main_arg3]

/-- What the host program after the launch leaves in the result buffer. -/
theorem tail_eq (c : Dev nD) :
    Pipeline.afterTail₀ cfgs (dats m) 0 (V0 m) [hostOps1] c main_v8 = result (argY m c) (argS m c) (argP m c) := by
  unfold Pipeline.afterTail₀
  show StableHlo.after hostOps1 _ (Proc.devRef .tc main_v8) = _
  after_results
  rw [Pipeline.withArrays_arr spec0 launch0.win.arr_inj c _ _ 5, Pipeline.withArrays_arr spec0 launch0.win.arr_inj c _ _ 6,
    final_first, final_second, rates_first, rates_second]
  rfl

/-- The kernel's run: every weakly fair execution terminates with the result buffer at `result` of the launched
    arguments and the arguments unchanged. -/
theorem run : θ_run defs (onTc (τ := τ) (main (F := Ideal))) ⟨m, fun _ => 0, ρ⟩ (fun r => ∀ c : Dev nD,
      r.2.mem ((c.tc : Thread nD τ).loc main_v8) = result (argY m c) (argS m c) (argP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).1 4).trans (((dats m 0 c).arrAt_in 4 rfl _).trans ((A_eq m c 4).trans (V_main_arg3 m c)))⟩)
    (run_main m ρ)

end Cert.ReactionDiffusion.Result

end
-- ==== Proof.lean ====
/-
  A kernel for the right-hand side of a two-species reaction–diffusion system against its plain reference.

  Both programs take a state vector y of 2n numbers (n = 8192), an n × n diffusion matrix S and a column p of n
  parameters, cut y into u = (y_0 … y_{n−1}) and v = (y_n … y_{2n−1}), and return the 2n numbers

      du_r = Σ_k S_{r,k} · u_k + ((8 · u_r) · (1 − u_r)) · (u_r − p_r) − u_r · v_r      (r = 0 … n−1)
      dv_r = e · (((8 · u_r) · ((u_r − p_r) − 1)) + v_r)                               (r = 0 … n−1)

  one after the other, e being the single-precision number nearest to −0.01. The pointwise arithmetic is the same
  sequence of operations on the same three constants in both programs. They differ only in how S·u is formed: the
  reference takes one matrix product; the kernel works on 512 rows at a time and, within those, on strips of 64 rows,
  multiplying a strip entry by entry with the row (u_0 … u_{n−1}) repeated and adding each row of products up. On the
  extended reals each of these is the sum Σ_k S_{r,k} · u_k taken over the same index set with the same factors in the
  same order of multiplication, so no law of arithmetic is needed beyond reading both as that sum, and the hypothesis
  that the inputs are finite is never used.

  The idealization changed nothing in the kernel's text, so there is nothing to preserve. The three frame statements
  are the generated frames of the two kernel programs and the reference's generated run with its result dropped.
-/
import proofs.«103282_j16355235463647_2_alg».proof.Defs
import proofs.«103282_j16355235463647_2_alg».proof.Proof.Gen.Kernel
import proofs.«103282_j16355235463647_2_alg».proof.Proof.Gen.Kernel.Skeleton
import proofs.«103282_j16355235463647_2_alg».proof.Proof.Gen.Kernel.Launch
import proofs.«103282_j16355235463647_2_alg».proof.Proof.Gen.Kernel.Points
import proofs.«103282_j16355235463647_2_alg».proof.Proof.Gen.Kernel.Frame
import proofs.«103282_j16355235463647_2_alg».proof.Proof.Gen.KernelIdeal
import proofs.«103282_j16355235463647_2_alg».proof.Proof.Gen.KernelIdeal.Skeleton
import proofs.«103282_j16355235463647_2_alg».proof.Proof.Gen.KernelIdeal.Launch
import proofs.«103282_j16355235463647_2_alg».proof.Proof.Gen.KernelIdeal.Points
import proofs.«103282_j16355235463647_2_alg».proof.Proof.Gen.KernelIdeal.Frame
import proofs.«103282_j16355235463647_2_alg».proof.Proof.Gen.ReferenceIdeal
import proofs.«103282_j16355235463647_2_alg».proof.Proof.Gen.Pre_finite_inputs
import proofs.«103282_j16355235463647_2_alg».proof.Proof.Gen.ReferenceIdeal.Run
import proofs.«103282_j16355235463647_2_alg».proof.Proof.Gen.ReferenceIdeal.Read
import proofs.«103282_j16355235463647_2_alg».proof.Proof.ReferenceRead
import proofs.«103282_j16355235463647_2_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem
open Cert.ReactionDiffusion

/-- The reference cuts and lays out u and v exactly as the kernel's host program does. -/
theorem colU_eq (y : Cert.ReferenceIdeal.S16384.Idx → EReal) : Reference.colU y = Arrays.colU y := rfl
theorem colV_eq (y : Cert.ReferenceIdeal.S16384.Idx → EReal) : Reference.colV y = Arrays.colV y := rfl

/-- The reference's result, as its run states it, is the kernel's result function of the same arguments. -/
theorem reference_result (y : Cert.ReferenceIdeal.S16384.Idx → EReal) (S : Cert.ReferenceIdeal.S8192x8192.Idx → EReal)
    (P : Cert.ReferenceIdeal.S8192x1.Idx → EReal) :
    Cert.ReferenceIdeal.Read.val_main_v26 (F := Ideal) y S P = Result.result y S P := by
  unfold Cert.ReferenceIdeal.Read.val_main_v26 Cert.ReferenceIdeal.Read.val_main_v24 Cert.ReferenceIdeal.Read.val_main_v25
  rw [Reference.first_eq, Reference.second_eq, colU_eq, colV_eq]
  rfl

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the same 2n numbers: the first species' rates,
    then the second species' rates, of S, u, v and p. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Result.result (Arrays.argY m c) (Arrays.argS m c) (Arrays.argP m c), Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2.1, (hagree c).2.2.2]
  exact (Cert.ReferenceIdeal.Read.val_main_v26_eq _ _ _).trans (reference_result _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
